-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x32 : Shape := ⟨3, ![2, 4096, 32]⟩
abbrev S2x4096x3 : Shape := ⟨3, ![2, 4096, 3]⟩
abbrev S3x512 : Shape := ⟨2, ![3, 512]⟩
abbrev S_ : Shape := ⟨0, ![]⟩

class Facts : Prop where
  bcast_S_S2x4096x3 : S_.BroadcastsInDim S2x4096x3 (![] : Fin 0 → Fin S2x4096x3.rank)
  reducesTo_S2x4096x3_S_d0_1_2 : S2x4096x3.ReducesTo [0, 1, 2] S_
  h_S_ : 0 < S_.numel
  bcast_S_S3x512 : S_.BroadcastsInDim S3x512 (![] : Fin 0 → Fin S3x512.rank)
  reducesTo_S3x512_S_d0_1 : S3x512.ReducesTo [0, 1] S_

variable [Facts]

def fn {F : FTy → Type} [FloatOps F] (main_arg0 : IVec S2x4096x32 32) (main_arg1 : FVec F S2x4096x3 .f32) (main_arg2 : FVec F S3x512 .f32) : IVec S_ 1 :=
  let main_v0 : FVec F S2x4096x3 .f32 := Host.absf main_arg1
  let main_cst : FVec F S_ .f32 := constant S_ .f32 0x7F800000#32
  let main_v1 : FVec F S2x4096x3 .f32 := broadcastInDim S2x4096x3 ![] bcast_S_S2x4096x3 main_cst
  let main_v2 : IVec S2x4096x3 1 := cmpf .olt main_v0 main_v1
  let main_c : IVec S_ 1 := constantI S_ 1 1#1
  let main_v3 : IVec S_ 1 := (fun x v => Host.reduce IntOp.andi x v reducesTo_S2x4096x3_S_d0_1_2 h_S_) main_v2 main_c
  let main_v4 : FVec F S3x512 .f32 := Host.absf main_arg2
  let main_cst_0 : FVec F S_ .f32 := constant S_ .f32 0x7F800000#32
  let main_v5 : FVec F S3x512 .f32 := broadcastInDim S3x512 ![] bcast_S_S3x512 main_cst_0
  let main_v6 : IVec S3x512 1 := cmpf .olt main_v4 main_v5
  let main_c_1 : IVec S_ 1 := constantI S_ 1 1#1
  let main_v7 : IVec S_ 1 := (fun x v => Host.reduce IntOp.andi x v reducesTo_S3x512_S_d0_1 h_S_) main_v6 main_c_1
  let main_v8 : IVec S_ 1 := andi main_v3 main_v7
  main_v8
-- ==== Kernel.lean ====
abbrev S2x4096x32 : Shape := ⟨3, ![2, 4096, 32]⟩
abbrev S2x4096x3 : Shape := ⟨3, ![2, 4096, 3]⟩
abbrev S3x512 : Shape := ⟨2, ![3, 512]⟩
abbrev S2 : Shape := ⟨1, ![2]⟩
abbrev S2x1x1 : Shape := ⟨3, ![2, 1, 1]⟩
abbrev S_ : Shape := ⟨0, ![]⟩
abbrev S2x4096x32x1 : Shape := ⟨4, ![2, 4096, 32, 1]⟩
abbrev S2x4096x32x2 : Shape := ⟨4, ![2, 4096, 32, 2]⟩
abbrev S2x4096x32x3 : Shape := ⟨4, ![2, 4096, 32, 3]⟩
abbrev S512 : Shape := ⟨1, ![512]⟩
abbrev S1x512 : Shape := ⟨2, ![1, 512]⟩
abbrev S2x4096x64 : Shape := ⟨3, ![2, 4096, 64]⟩
abbrev S1x256x32x3 : Shape := ⟨4, ![1, 256, 32, 3]⟩
abbrev S1x256x3 : Shape := ⟨3, ![1, 256, 3]⟩
abbrev S1x256x64 : Shape := ⟨3, ![1, 256, 64]⟩
abbrev S256x3 : Shape := ⟨2, ![256, 3]⟩
abbrev S256x32x3 : Shape := ⟨3, ![256, 32, 3]⟩
abbrev S256x1x3 : Shape := ⟨3, ![256, 1, 3]⟩
abbrev S256x32 : Shape := ⟨2, ![256, 32]⟩
abbrev S256x32x1 : Shape := ⟨3, ![256, 32, 1]⟩
abbrev S8192x3 : Shape := ⟨2, ![8192, 3]⟩
abbrev S256x64 : Shape := ⟨2, ![256, 64]⟩
abbrev S3x64 : Shape := ⟨2, ![3, 64]⟩
abbrev S8192x64 : Shape := ⟨2, ![8192, 64]⟩
abbrev S256x32x64 : Shape := ⟨3, ![256, 32, 64]⟩

abbrev nBuf : Space → Nat
  | .hbm => 35
  | .vmem => 7
  | .smem => 0
  | _ => 0

abbrev bufTy : (tb : Table) → Fin (tcTables nBuf tb) → BufTy
  | .hbm, ⟨0, _⟩ => ⟨S2x4096x32, .i32⟩
  | .hbm, ⟨1, _⟩ => ⟨S2x4096x3, .f32⟩
  | .hbm, ⟨2, _⟩ => ⟨S3x512, .f32⟩
  | .hbm, ⟨3, _⟩ => ⟨S2, .i32⟩
  | .hbm, ⟨4, _⟩ => ⟨S2x1x1, .i32⟩
  | .hbm, ⟨5, _⟩ => ⟨S_, .i32⟩
  | .hbm, ⟨6, _⟩ => ⟨S2x1x1, .i32⟩
  | .hbm, ⟨7, _⟩ => ⟨S2x1x1, .i1⟩
  | .hbm, ⟨8, _⟩ => ⟨S_, .i32⟩
  | .hbm, ⟨9, _⟩ => ⟨S2x1x1, .i32⟩
  | .hbm, ⟨10, _⟩ => ⟨S2x1x1, .i32⟩
  | .hbm, ⟨11, _⟩ => ⟨S2x1x1, .i32⟩
  | .hbm, ⟨12, _⟩ => ⟨S_, .i32⟩
  | .hbm, ⟨13, _⟩ => ⟨S2x4096x32, .i32⟩
  | .hbm, ⟨14, _⟩ => ⟨S2x4096x32, .i1⟩
  | .hbm, ⟨15, _⟩ => ⟨S_, .i32⟩
  | .hbm, ⟨16, _⟩ => ⟨S2x4096x32, .i32⟩
  | .hbm, ⟨17, _⟩ => ⟨S2x4096x32, .i32⟩
  | .hbm, ⟨18, _⟩ => ⟨S2x4096x32, .i32⟩
  | .hbm, ⟨19, _⟩ => ⟨S2x4096x32, .i32⟩
  | .hbm, ⟨20, _⟩ => ⟨S2x4096x32x1, .i32⟩
  | .hbm, ⟨21, _⟩ => ⟨S2x4096x32x1, .i32⟩
  | .hbm, ⟨22, _⟩ => ⟨S2x4096x32x2, .i32⟩
  | .hbm, ⟨23, _⟩ => ⟨S2x4096x32x3, .f32⟩
  | .hbm, ⟨24, _⟩ => ⟨S3x512, .f32⟩
  | .hbm, ⟨25, _⟩ => ⟨S_, .f32⟩
  | .hbm, ⟨26, _⟩ => ⟨S512, .f32⟩
  | .hbm, ⟨27, _⟩ => ⟨S1x512, .f32⟩
  | .hbm, ⟨28, _⟩ => ⟨S1x512, .f32⟩
  | .hbm, ⟨29, _⟩ => ⟨S_, .f32⟩
  | .hbm, ⟨30, _⟩ => ⟨S1x512, .f32⟩
  | .hbm, ⟨31, _⟩ => ⟨S1x512, .f32⟩
  | .hbm, ⟨32, _⟩ => ⟨S3x512, .f32⟩
  | .hbm, ⟨33, _⟩ => ⟨S3x512, .f32⟩
  | .hbm, ⟨34, _⟩ => ⟨S2x4096x64, .f32⟩
  | .local _ .vmem, ⟨0, _⟩ => ⟨S1x256x32x3, .f32⟩
  | .local _ .vmem, ⟨1, _⟩ => ⟨S1x256x32x3, .f32⟩
  | .local _ .vmem, ⟨2, _⟩ => ⟨S1x256x3, .f32⟩
  | .local _ .vmem, ⟨3, _⟩ => ⟨S1x256x3, .f32⟩
  | .local _ .vmem, ⟨4, _⟩ => ⟨S3x512, .f32⟩
  | .local _ .vmem, ⟨5, _⟩ => ⟨S1x256x64, .f32⟩
  | .local _ .vmem, ⟨6, _⟩ => ⟨S1x256x64, .f32⟩
  | _, _ => ⟨S2x4096x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x32x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S2_S2x1x1_0 : S2.BroadcastsInDim S2x1x1 (![0] : Fin 1 → Fin S2x1x1.rank)
  bcast_S_S2x1x1 : S_.BroadcastsInDim S2x1x1 (![] : Fin 0 → Fin S2x1x1.rank)
  bcast_S_S2x4096x32 : S_.BroadcastsInDim S2x4096x32 (![] : Fin 0 → Fin S2x4096x32.rank)
  bcast_S2x1x1_S2x4096x32_0_1_2 : S2x1x1.BroadcastsInDim S2x4096x32 (![0, 1, 2] : Fin 3 → Fin S2x4096x32.rank)
  bcast_S2x4096x32_S2x4096x32x1_0_1_2 : S2x4096x32.BroadcastsInDim S2x4096x32x1 (![0, 1, 2] : Fin 3 → Fin S2x4096x32x1.rank)
  concatenates_S2x4096x32x1_S2x4096x32x1_S2x4096x32x2_d3 : Shape.Concatenates [S2x4096x32x1, S2x4096x32x1] S2x4096x32x2 3
  reducesTo_S3x512_S512_d0 : S3x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)
  bcast_S1x512_S3x512_0_1 : S1x512.BroadcastsInDim S3x512 (![0, 1] : Fin 2 → Fin S3x512.rank)
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x256x32x3_S1x256x32x3_0_0_0_0 : ∀ a, (![0, 0, 0, 0] : Fin 4 → Nat) a + S1x256x32x3.size a ≤ S1x256x32x3.size a
  h_S1x256x32x3 : 0 < S1x256x32x3.numel
  shapeCasts_S1x256x32x3_S256x32x3 : S1x256x32x3.ShapeCasts S256x32x3
  shapeCasts_S256x3_S256x1x3 : S256x3.ShapeCasts S256x1x3
  broadcasts_S256x1x3_S256x32x3 : S256x1x3.Broadcasts S256x32x3
  reduces_S256x32x3_S256x32 : S256x32x3.Reduces [2] S256x32
  shapeCasts_S256x32_S256x32x1 : S256x32.ShapeCasts S256x32x1
  broadcasts_S256x32x1_S256x32x3 : S256x32x1.Broadcasts S256x32x3
  bitsLt_bf16_f32 : FTy.bits .bf16 < FTy.bits .f32
  shapeCasts_S256x32x3_S8192x3 : S256x32x3.ShapeCasts S8192x3
  inb_S3x512_S3x64_0_0 : ∀ a, (![0, 0] : Fin 2 → Nat) a + S3x64.size a ≤ S3x512.size a
  h_S3x64 : 0 < S3x64.numel
  shapeCasts_S3x64_S3x64 : S3x64.ShapeCasts S3x64
  shapeCasts_S8192x64_S256x32x64 : S8192x64.ShapeCasts S256x32x64
  reduces_S256x32x64_S256x64 : S256x32x64.Reduces [1] S256x64
  inb_S3x512_S3x64_0_64 : ∀ a, (![0, 64] : Fin 2 → Nat) a + S3x64.size a ≤ S3x512.size a
  inb_S3x512_S3x64_0_128 : ∀ a, (![0, 128] : Fin 2 → Nat) a + S3x64.size a ≤ S3x512.size a
  inb_S3x512_S3x64_0_192 : ∀ a, (![0, 192] : Fin 2 → Nat) a + S3x64.size a ≤ S3x512.size a
  inb_S3x512_S3x64_0_256 : ∀ a, (![0, 256] : Fin 2 → Nat) a + S3x64.size a ≤ S3x512.size a
  inb_S3x512_S3x64_0_320 : ∀ a, (![0, 320] : Fin 2 → Nat) a + S3x64.size a ≤ S3x512.size a
  inb_S3x512_S3x64_0_384 : ∀ a, (![0, 384] : Fin 2 → Nat) a + S3x64.size a ≤ S3x512.size a
  inb_S3x512_S3x64_0_448 : ∀ a, (![0, 448] : Fin 2 → Nat) a + S3x64.size a ≤ S3x512.size a
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  gather_S2x4096x3_S2x4096x32x2_S2x4096x32x3_3_01_n_n_01_3_113_wf : GatherDims.WF S2x4096x3 S2x4096x32x2 S2x4096x32x3 [3] [0, 1] [] [0, 1] [] 3 ![1, 1, 3]
  dot_S8192x3_S3x64_S8192x64_1_0_0_1_n_n_wf : DotDims.WF S8192x3 S3x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32x3.size a ≤ S2x4096x32x3.size a
  hwx0_0 : ∀ i : grid0.Coords, EltTy.bits .f32 = 32 ∨ (Rect.block (s := S2x4096x32x3) S1x256x32x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3.size a ≤ S2x4096x3.size a
  hwx0_1 : ∀ i : grid0.Coords, EltTy.bits .f32 = 32 ∨ (Rect.block (s := S2x4096x3) S1x256x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x512.size a ≤ S3x512.size a
  hwx0_2 : ∀ i : grid0.Coords, EltTy.bits .f32 = 32 ∨ (Rect.block (s := S3x512) S3x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S2x4096x64.size a
  hwx0_3 : ∀ i : grid0.Coords, EltTy.bits .f32 = 32 ∨ (Rect.block (s := S2x4096x64) S1x256x64.size (cc0_transform_3 i) (hinb0_3 i)).WholeWords (EltTy.packing .f32)

variable [Facts₀]

def gather_S2x4096x3_S2x4096x32x2_S2x4096x32x3_3_01_n_n_01_3_113 : GatherDims S2x4096x3 S2x4096x32x2 S2x4096x32x3 where
  offsetDims := [3]
  collapsedSliceDims := [0, 1]
  operandBatchingDims := []
  startIndicesBatchingDims := []
  startIndexMap := [0, 1]
  indexVectorDim := 3
  sliceSizes := ![1, 1, 3]
  wf := gather_S2x4096x3_S2x4096x32x2_S2x4096x32x3_3_01_n_n_01_3_113_wf
def dot_S8192x3_S3x64_S8192x64_1_0_0_1_n_n : DotDims S8192x3 S3x64 S8192x64 where
  lhsContracting := [1]
  rhsContracting := [0]
  lhsNonContracting := [0]
  rhsNonContracting := [1]
  lhsBatch := []
  rhsBatch := []
  wf := dot_S8192x3_S3x64_S8192x64_1_0_0_1_n_n_wf

abbrev win0_0 : Pipeline.Window sig grid0 :=
  Pipeline.Window.ofSpec (Memref.whole main_v16) S1x256x32x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S3x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4096x32 : Shape := ⟨3, ![2, 4096, 32]⟩
abbrev S2x4096x3 : Shape := ⟨3, ![2, 4096, 3]⟩
abbrev S3x512 : Shape := ⟨2, ![3, 512]⟩
abbrev S2 : Shape := ⟨1, ![2]⟩
abbrev S2x1x1 : Shape := ⟨3, ![2, 1, 1]⟩
abbrev S_ : Shape := ⟨0, ![]⟩
abbrev S2x4096x32x1 : Shape := ⟨4, ![2, 4096, 32, 1]⟩
abbrev S2x4096x32x2 : Shape := ⟨4, ![2, 4096, 32, 2]⟩
abbrev S2x4096x32x3 : Shape := ⟨4, ![2, 4096, 32, 3]⟩
abbrev S2x4096x1x3 : Shape := ⟨4, ![2, 4096, 1, 3]⟩
abbrev S512 : Shape := ⟨1, ![512]⟩
abbrev S1x512 : Shape := ⟨2, ![1, 512]⟩
abbrev S2x4096x32x512 : Shape := ⟨4, ![2, 4096, 32, 512]⟩
abbrev S2x4096x32x8x64 : Shape := ⟨5, ![2, 4096, 32, 8, 64]⟩
abbrev S2x4096x8x64 : Shape := ⟨4, ![2, 4096, 8, 64]⟩
abbrev S2x4096x64 : Shape := ⟨3, ![2, 4096, 64]⟩

abbrev nBuf : Space → Nat
  | .hbm => 56
  | .vmem => 0
  | .smem => 0
  | _ => 0

abbrev bufTy : (tb : Table) → Fin (tcTables nBuf tb) → BufTy
  | .hbm, ⟨0, _⟩ => ⟨S2x4096x32, .i32⟩
  | .hbm, ⟨1, _⟩ => ⟨S2x4096x3, .f32⟩
  | .hbm, ⟨2, _⟩ => ⟨S3x512, .f32⟩
  | .hbm, ⟨3, _⟩ => ⟨S2, .i32⟩
  | .hbm, ⟨4, _⟩ => ⟨S2x1x1, .i32⟩
  | .hbm, ⟨5, _⟩ => ⟨S_, .i32⟩
  | .hbm, ⟨6, _⟩ => ⟨S2x1x1, .i32⟩
  | .hbm, ⟨7, _⟩ => ⟨S2x1x1, .i1⟩
  | .hbm, ⟨8, _⟩ => ⟨S_, .i32⟩
  | .hbm, ⟨9, _⟩ => ⟨S2x1x1, .i32⟩
  | .hbm, ⟨10, _⟩ => ⟨S2x1x1, .i32⟩
  | .hbm, ⟨11, _⟩ => ⟨S2x1x1, .i32⟩
  | .hbm, ⟨12, _⟩ => ⟨S_, .i32⟩
  | .hbm, ⟨13, _⟩ => ⟨S2x4096x32, .i32⟩
  | .hbm, ⟨14, _⟩ => ⟨S2x4096x32, .i1⟩
  | .hbm, ⟨15, _⟩ => ⟨S_, .i32⟩
  | .hbm, ⟨16, _⟩ => ⟨S2x4096x32, .i32⟩
  | .hbm, ⟨17, _⟩ => ⟨S2x4096x32, .i32⟩
  | .hbm, ⟨18, _⟩ => ⟨S2x4096x32, .i32⟩
  | .hbm, ⟨19, _⟩ => ⟨S2x4096x32, .i32⟩
  | .hbm, ⟨20, _⟩ => ⟨S2x4096x32x1, .i32⟩
  | .hbm, ⟨21, _⟩ => ⟨S2x4096x32x1, .i32⟩
  | .hbm, ⟨22, _⟩ => ⟨S2x4096x32x2, .i32⟩
  | .hbm, ⟨23, _⟩ => ⟨S2x4096x32x3, .f32⟩
  | .hbm, ⟨24, _⟩ => ⟨S2x4096x1x3, .f32⟩
  | .hbm, ⟨25, _⟩ => ⟨S2x4096x32x3, .f32⟩
  | .hbm, ⟨26, _⟩ => ⟨S2x4096x32x3, .f32⟩
  | .hbm, ⟨27, _⟩ => ⟨S2x4096x32x3, .f32⟩
  | .hbm, ⟨28, _⟩ => ⟨S_, .f32⟩
  | .hbm, ⟨29, _⟩ => ⟨S2x4096x32, .f32⟩
  | .hbm, ⟨30, _⟩ => ⟨S2x4096x32x1, .f32⟩
  | .hbm, ⟨31, _⟩ => ⟨S2x4096x32x1, .f32⟩
  | .hbm, ⟨32, _⟩ => ⟨S_, .f32⟩
  | .hbm, ⟨33, _⟩ => ⟨S2x4096x32x1, .f32⟩
  | .hbm, ⟨34, _⟩ => ⟨S2x4096x32x1, .f32⟩
  | .hbm, ⟨35, _⟩ => ⟨S2x4096x32x3, .f32⟩
  | .hbm, ⟨36, _⟩ => ⟨S2x4096x32x3, .f32⟩
  | .hbm, ⟨37, _⟩ => ⟨S3x512, .f32⟩
  | .hbm, ⟨38, _⟩ => ⟨S_, .f32⟩
  | .hbm, ⟨39, _⟩ => ⟨S512, .f32⟩
  | .hbm, ⟨40, _⟩ => ⟨S1x512, .f32⟩
  | .hbm, ⟨41, _⟩ => ⟨S1x512, .f32⟩
  | .hbm, ⟨42, _⟩ => ⟨S_, .f32⟩
  | .hbm, ⟨43, _⟩ => ⟨S1x512, .f32⟩
  | .hbm, ⟨44, _⟩ => ⟨S1x512, .f32⟩
  | .hbm, ⟨45, _⟩ => ⟨S3x512, .f32⟩
  | .hbm, ⟨46, _⟩ => ⟨S3x512, .f32⟩
  | .hbm, ⟨47, _⟩ => ⟨S2x4096x32x512, .f32⟩
  | .hbm, ⟨48, _⟩ => ⟨S_, .f32⟩
  | .hbm, ⟨49, _⟩ => ⟨S2x4096x32x512, .f32⟩
  | .hbm, ⟨50, _⟩ => ⟨S2x4096x32x512, .f32⟩
  | .hbm, ⟨51, _⟩ => ⟨S2x4096x32x8x64, .f32⟩
  | .hbm, ⟨52, _⟩ => ⟨S_, .f32⟩
  | .hbm, ⟨53, _⟩ => ⟨S2x4096x8x64, .f32⟩
  | .hbm, ⟨54, _⟩ => ⟨S_, .f32⟩
  | .hbm, ⟨55, _⟩ => ⟨S2x4096x64, .f32⟩
  | _, _ => ⟨S2x4096x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_cst : Ref sig .tc := ⟨.hbm, 48, rfl⟩
abbrev main_call0_v0 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  bcast_S2_S2x1x1_0 : S2.BroadcastsInDim S2x1x1 (![0] : Fin 1 → Fin S2x1x1.rank)
  bcast_S_S2x1x1 : S_.BroadcastsInDim S2x1x1 (![] : Fin 0 → Fin S2x1x1.rank)
  bcast_S_S2x4096x32 : S_.BroadcastsInDim S2x4096x32 (![] : Fin 0 → Fin S2x4096x32.rank)
  bcast_S2x1x1_S2x4096x32_0_1_2 : S2x1x1.BroadcastsInDim S2x4096x32 (![0, 1, 2] : Fin 3 → Fin S2x4096x32.rank)
  bcast_S2x4096x32_S2x4096x32x1_0_1_2 : S2x4096x32.BroadcastsInDim S2x4096x32x1 (![0, 1, 2] : Fin 3 → Fin S2x4096x32x1.rank)
  concatenates_S2x4096x32x1_S2x4096x32x1_S2x4096x32x2_d3 : Shape.Concatenates [S2x4096x32x1, S2x4096x32x1] S2x4096x32x2 3
  bcast_S2x4096x3_S2x4096x1x3_0_1_3 : S2x4096x3.BroadcastsInDim S2x4096x1x3 (![0, 1, 3] : Fin 3 → Fin S2x4096x1x3.rank)
  bcast_S2x4096x1x3_S2x4096x32x3_0_1_2_3 : S2x4096x1x3.BroadcastsInDim S2x4096x32x3 (![0, 1, 2, 3] : Fin 4 → Fin S2x4096x32x3.rank)
  reducesTo_S2x4096x32x3_S2x4096x32_d3 : S2x4096x32x3.ReducesTo [3] S2x4096x32
  h_S_ : 0 < S_.numel
  bcast_S_S2x4096x32x1 : S_.BroadcastsInDim S2x4096x32x1 (![] : Fin 0 → Fin S2x4096x32x1.rank)
  bcast_S2x4096x32x1_S2x4096x32x3_0_1_2_3 : S2x4096x32x1.BroadcastsInDim S2x4096x32x3 (![0, 1, 2, 3] : Fin 4 → Fin S2x4096x32x3.rank)
  reducesTo_S3x512_S512_d0 : S3x512.ReducesTo [0] S512
  bcast_S512_S1x512_1 : S512.BroadcastsInDim S1x512 (![1] : Fin 1 → Fin S1x512.rank)
  bcast_S_S1x512 : S_.BroadcastsInDim S1x512 (![] : Fin 0 → Fin S1x512.rank)
  bcast_S1x512_S3x512_0_1 : S1x512.BroadcastsInDim S3x512 (![0, 1] : Fin 2 → Fin S3x512.rank)
  bcast_S_S2x4096x32x512 : S_.BroadcastsInDim S2x4096x32x512 (![] : Fin 0 → Fin S2x4096x32x512.rank)
  shapeCasts_S2x4096x32x512_S2x4096x32x8x64 : S2x4096x32x512.ShapeCasts S2x4096x32x8x64
  reducesTo_S2x4096x32x8x64_S2x4096x8x64_d2 : S2x4096x32x8x64.ReducesTo [2] S2x4096x8x64
  reducesTo_S2x4096x8x64_S2x4096x64_d2 : S2x4096x8x64.ReducesTo [2] S2x4096x64
  gather_S2x4096x3_S2x4096x32x2_S2x4096x32x3_3_01_n_n_01_3_113_wf : GatherDims.WF S2x4096x3 S2x4096x32x2 S2x4096x32x3 [3] [0, 1] [] [0, 1] [] 3 ![1, 1, 3]
  dot_S2x4096x32x3_S3x512_S2x4096x32x512_3_0_012_1_n_n_wf : DotDims.WF S2x4096x32x3 S3x512 S2x4096x32x512 [3] [0] [0, 1, 2] [1] [] []

variable [Facts₀]

def gather_S2x4096x3_S2x4096x32x2_S2x4096x32x3_3_01_n_n_01_3_113 : GatherDims S2x4096x3 S2x4096x32x2 S2x4096x32x3 where
  offsetDims := [3]
  collapsedSliceDims := [0, 1]
  operandBatchingDims := []
  startIndicesBatchingDims := []
  startIndexMap := [0, 1]
  indexVectorDim := 3
  sliceSizes := ![1, 1, 3]
  wf := gather_S2x4096x3_S2x4096x32x2_S2x4096x32x3_3_01_n_n_01_3_113_wf
def dot_S2x4096x32x3_S3x512_S2x4096x32x512_3_0_012_1_n_n : DotDims S2x4096x32x3 S3x512 S2x4096x32x512 where
  lhsContracting := [3]
  rhsContracting := [0]
  lhsNonContracting := [0, 1, 2]
  rhsNonContracting := [1]
  lhsBatch := []
  rhsBatch := []
  wf := dot_S2x4096x32x3_S3x512_S2x4096x32x512_3_0_012_1_n_n_wf

class Facts : Prop extends Facts₀ where

variable [Facts]
-- ==== Proof.Spec.lean ====
/-
  The specification of the directional neighbourhood feature, on the extended reals.

  For a vertex `(b, v)` with neighbours `n < 32`, the edge to neighbour `n` is the difference of the neighbour's
  position and the vertex's; it is normalised by dividing each coordinate by `max (sqrt (sum of squares)) eps`. The
  response of that unit edge to a direction column `w` is the rectified inner product `max (sum over d of u d * w d) 0`.
  The 512 direction columns are 8 supports of 64 filters, column `64 * s + k` being filter `k` of support `s`; the
  feature of the vertex at filter `k` is the sum over the supports of the largest response among the neighbours.

  Both the kernel and the reference compute exactly this; the kernel adds the eight maxima onto a zero accumulator one
  after the other, the reference sums them, and `accumulate_eq_sum` is the one law between the two spellings: addition
  on the extended reals is associative with neutral element zero (no finiteness is asked).
-/
import Idealize.ShloMosaic.PureOps.Ideal
import Idealize.ShloMosaic.PureOps.Ideal.Laws
import Idealize.ShloMosaic.Lib.ValueIdx

noncomputable section

namespace Cert.DirectionalFeature

open Idealize.ShloMosaic Idealize.ShloMosaic.ValueIdx
open scoped BigOperators

/-- The gathered neighbour positions, `[batch, vertex, neighbour, coordinate]`. -/
abbrev SNb : Shape := ⟨4, ![2, 4096, 32, 3]⟩
/-- The vertex positions, `[batch, vertex, coordinate]`. -/
abbrev SVx : Shape := ⟨3, ![2, 4096, 3]⟩
/-- The normalised directions, `[coordinate, 8 supports of 64 filters]`. -/
abbrev SSd : Shape := ⟨2, ![3, 512]⟩
/-- The feature, `[batch, vertex, filter]`. -/
abbrev SOut : Shape := ⟨3, ![2, 4096, 64]⟩

/-- The smallest divisor the normalisation uses (the f32 word of 1e-12, the same word in both programs). -/
def eps : EReal := Ideal.ofBits .f32 0x2B8CBCCC#32

/-- The f32 word of zero, as both programs write the rectifier's threshold. -/
def zeroWord : EReal := Ideal.ofBits .f32 0x00000000#32

/-- A 3-vector divided by `max (its Euclidean length) eps`, coordinate by coordinate. -/
def unitOf (e : Fin 3 → EReal) (d : Fin 3) : EReal :=
  Ideal.div (e d) (max (Ideal.sqrt (∑ c : Fin 3, e c * e c)) eps)

/-- The rectified inner product of a unit edge with a direction column. -/
def response (u w : Fin 3 → EReal) : EReal :=
  max (∑ d : Fin 3, u d * w d) zeroWord

/-- Filter `k` of support `s` is direction column `64 * s + k`. -/
def col (s : Fin 8) (k : Fin 64) : Fin 512 := ⟨s.val * 64 + k.val, by have := s.isLt; have := k.isLt; omega⟩

/-- The edge from vertex `(b, v)` to its neighbour `n`. -/
def edge (nb : SNb.Idx → EReal) (vx : SVx.Idx → EReal) (b : Fin 2) (v : Fin 4096) (n : Fin 32) (d : Fin 3) : EReal :=
  nb (ix4 b v n d) - vx (ix3 b v d)

/-- Direction column `j` as a 3-vector. -/
def column (sd : SSd.Idx → EReal) (j : Fin 512) (d : Fin 3) : EReal := sd (ix2 d j)

/-- The feature of vertex `(b, v)` at filter `k`: over the eight supports, the sum of the largest response among the
    32 neighbours. -/
def featureAt (nb : SNb.Idx → EReal) (vx : SVx.Idx → EReal) (sd : SSd.Idx → EReal) (b : Fin 2) (v : Fin 4096)
    (k : Fin 64) : EReal :=
  ∑ s : Fin 8, ⨆ n : Fin 32, response (unitOf (edge nb vx b v n)) (column sd (col s k))

/-- The feature as one array. -/
def feature (nb : SNb.Idx → EReal) (vx : SVx.Idx → EReal) (sd : SSd.Idx → EReal) : SOut.Idx → EReal :=
  fun i => featureAt nb vx sd (i 0) (i 1) (i 2)

theorem feature_apply (nb : SNb.Idx → EReal) (vx : SVx.Idx → EReal) (sd : SSd.Idx → EReal) (b : Fin 2) (v : Fin 4096)
    (k : Fin 64) : feature nb vx sd (ix3 b v k) = featureAt nb vx sd b v k := rfl

/-- Eight terms added one after the other onto the zero word are their sum. -/
theorem accumulate_eq_sum (t : Fin 8 → EReal) :
    zeroWord + t 0 + t 1 + t 2 + t 3 + t 4 + t 5 + t 6 + t 7 = ∑ s : Fin 8, t s := by
  rw [Fin.sum_univ_eight, zeroWord, Ideal.ofBits_zero_f32, zero_add]

/-- A sum started from the zero word is the sum. -/
theorem zeroWord_add (x : EReal) : zeroWord + x = x := by
  rw [zeroWord, Ideal.ofBits_zero_f32, zero_add]

end Cert.DirectionalFeature

end
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«132764_j13554916786443_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibRowPairs.lean ====
/-
  Rows indexed by a pair, read at an index.

  A batch of `a · b` rows of length `c` is held either as a matrix `[n, c]` with `n = a · b`, row `p · b + q` being
  the row of the pair `(p, q)`, or as an array `[a, b, c]`; one value per pair is held either as `[a, b]` or as one line
  `[1, 1, n]`. A shape cast keeps the row-major position of every element, so reading one form at its index reads the
  other form at the index of the same pair. That `n = a · b` is part of the cast's hypothesis; the statements only need
  the row's number written as `p · b + q`.
-/
import Idealize.ShloMosaic.Lib.Pipeline.Value
import Idealize.ShloMosaic.Lib.ValueIdx

namespace Idealize.ShloMosaic.RowPairs

open Idealize.ShloMosaic Idealize.ShloMosaic.ValueIdx

variable {α : Type}

/-- An `[a, b, c]` array cast to the matrix `[n, c]` reads, at row `p · b + q` and column `k`, the array at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The matrix `[n, c]` cast to `[a, b, c]` reads, at `(p, q, k)`, the matrix at row `p · b + q` and column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- An `[a, b]` array of one value per pair, cast to the line `[1, 1, n]`, reads at position `p · b + q` the value of
    the pair `(p, q)`. -/
theorem shapeCast_ab_11n_apply {a b n : ℕ} (z : (⟨2, ![a, b]⟩ : Shape).Idx → α)
    (h : (⟨2, ![a, b]⟩ : Shape).ShapeCasts ⟨3, ![1, 1, n]⟩) (u v : Fin 1) (p : Fin a) (q : Fin b) (j : Fin n)
    (hj : j.val = p.val * b + q.val) :
    shapeCast ⟨3, ![1, 1, n]⟩ z h (ix3 u v j) = z (ix2 p q) :=
  shapeCast_apply z h _ _ (by
    have hu : u.val = 0 := by omega
    have hv : v.val = 0 := by omega
    rw [Shape.rowMajor_val_two, Shape.rowMajor_val_three]
    show p.val * b + q.val = (u.val * 1 + v.val) * n + j.val
    rw [hu, hv, hj]
    simp)

end Idealize.ShloMosaic.RowPairs
-- ==== Proof.LibUnitAxisLayout.lean ====
/-
  Layout operations of rank-3 arrays with unit axes, read at an index given by coordinates.

  A value that depends on fewer coordinates than the array it is combined with is carried as an
  array with unit axes and broadcast: a per-sample scalar as [a, 1, 1], a per-lane row as [1, 1, c],
  a per-sample row of lanes as [a, 1, c], each broadcast to [a, b, c]. Reading the broadcast at
  (p, q, r) reads the operand at the coordinates it has, and 0 on its unit axes. The casts that
  insert the middle unit axis, and the slice that picks one entry (k1, k2) of every sample's small
  matrix as an [a, 1, 1] column, are read the same way. Every lemma is the general statement of the
  operation at an index with the two indices written out coordinate by coordinate.
-/
import Idealize.ShloMosaic.Lib.Pipeline.Value
import Idealize.ShloMosaic.Lib.ValueIdx

namespace Idealize.ShloMosaic.UnitAxisLayout

open Idealize.ShloMosaic Idealize.ShloMosaic.ValueIdx

variable {α : Type}

/-! ## Broadcasts to [a, b, c] -/

/-- An [a, 1, 1] column broadcast to [a, b, c] reads, at (p, q, r), the column's entry p. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A [1, 1, c] row broadcast to [a, b, c] reads, at (p, q, r), the row's entry r. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, 1, c] slab broadcast to [a, b, c] reads, at (p, q, r), the slab's entry (p, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-! ## The cast that inserts a middle unit axis -/

/-- An [a, c] matrix cast to [a, 1, c] reads, at (p, u, r), the matrix at (p, r). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-! ## One entry of every sample's small matrix, as a column -/

/-- The unit-size slice of an [a, n1, n2] array at offsets (0, o1, o2) is the [a, 1, 1] column of the
    entries (k1, k2) = (o1, o2): at (p, 0, 0) it reads the array at (p, k1, k2). -/
theorem slice_entry_apply {a n1 n2 : ℕ} (o1 o2 : ℕ) (x : (⟨3, ![a, n1, n2]⟩ : Shape).Idx → α)
    (h : (⟨3, ![a, n1, n2]⟩ : Shape).Slices ![0, o1, o2] ⟨3, ![a, 1, 1]⟩) (p : Fin a) (u v : Fin 1)
    (k1 : Fin n1) (k2 : Fin n2) (hk1 : k1.val = o1) (hk2 : k2.val = o2) :
    extractStridedSlice ⟨3, ![a, 1, 1]⟩ ![0, o1, o2] x h (ix3 p u v) = x (ix3 p k1 k2) := by
  refine extractStridedSlice_apply ![0, o1, o2] x h (ix3 p u v) (ix3 p k1 k2) fun ax => ?_
  have hu : u.val = 0 := by omega
  have hv : v.val = 0 := by omega
  match ax with
  | ⟨0, _⟩ => show p.val = 0 + p.val; omega
  | ⟨1, _⟩ => show k1.val = o1 + u.val; omega
  | ⟨2, _⟩ => show k2.val = o2 + v.val; omega

/-- The same entry carried through the flattening [a, 1, 1] → [a] → [a, 1, 1] and broadcast to
    [a, b, c]: at (p, q, r) it is the array's entry (p, k1, k2). -/
theorem broadcast_entry_apply {a n1 n2 b c : ℕ} (o1 o2 : ℕ) (x : (⟨3, ![a, n1, n2]⟩ : Shape).Idx → α)
    (hs : (⟨3, ![a, n1, n2]⟩ : Shape).Slices ![0, o1, o2] ⟨3, ![a, 1, 1]⟩)
    (h1 : (⟨3, ![a, 1, 1]⟩ : Shape).ShapeCasts ⟨1, ![a]⟩) (h2 : (⟨1, ![a]⟩ : Shape).ShapeCasts ⟨3, ![a, 1, 1]⟩)
    (hb : (⟨3, ![a, 1, 1]⟩ : Shape).Broadcasts ⟨3, ![a, b, c]⟩) (p : Fin a) (q : Fin b) (r : Fin c)
    (k1 : Fin n1) (k2 : Fin n2) (hk1 : k1.val = o1) (hk2 : k2.val = o2) :
    broadcastTo ⟨3, ![a, b, c]⟩
        (shapeCast ⟨3, ![a, 1, 1]⟩ (shapeCast ⟨1, ![a]⟩ (extractStridedSlice ⟨3, ![a, 1, 1]⟩ ![0, o1, o2] x hs) h1) h2) hb
        (ix3 p q r)
      = x (ix3 p k1 k2) := by
  rw [broadcastTo_a11_abc_apply, shapeCast_shapeCast]
  exact slice_entry_apply o1 o2 x hs p 0 0 k1 k2 hk1 hk2

end Idealize.ShloMosaic.UnitAxisLayout
-- ==== Proof.LibRank3Layout.lean ====
/-
  Three layout operations of rank three read at an index given by coordinates.

  A matrix `[a, b]` viewed as `[a, b, 1]` (a trailing unit axis added by a shape cast) keeps its row-major
  position, so entry `(i, j, 0)` of the view is entry `(i, j)` of the matrix. A broadcast never moves a
  coordinate: it reads the operand at the same coordinate on every axis the operand really has, and at `0` on
  an axis of extent one. So `[a, b, 1]` broadcast to `[a, b, c]` forgets the last coordinate, and
  `[1, b, c]` broadcast to `[a, b, c]` forgets the first.

  Together: `x[:, :, None]` stretched along a new last axis reads `x (i, j)` at `(i, j, k)`, and
  `w[None, :, :]` stretched along a new first axis reads `w (j, k)` at `(p, j, k)`.
-/
import Idealize.ShloMosaic.Lib.ValueLayout

namespace Cert.Rank3Layout

open Idealize.ShloMosaic Idealize.ShloMosaic.ValueIdx

variable {α : Type}

/-- An `[a, b]` array cast to `[a, b, 1]` reads, at `(i, j, u)`, the operand at `(i, j)`, whatever the unit
    coordinate `u`: both sit at row-major position `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`: the last
    axis has extent one in the operand, the other two are read where they are. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(p, j, k)`, the operand's one slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (j : Fin b) (k : Fin c) :
    broadcastTo ⟨3, ![a, b, c]⟩ v h (ix3 p j k) = v (ix3 (0 : Fin 1) j k) := by
  refine broadcastTo_apply v h (ix3 p j k) (ix3 (0 : Fin 1) j k) fun ax => ?_
  match ax with
  | ⟨0, _⟩ =>
    show (0 : ℕ) = if (1 : ℕ) = 1 then 0 else p.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- The column view of a matrix stretched along a new last axis: `x[:, :, None]` broadcast to `[a, b, c]` reads
    `x (i, j)` at `(i, j, k)`. -/
theorem column_stretch_apply {a b c : ℕ} (x : (⟨2, ![a, b]⟩ : Shape).Idx → α)
    (hc : (⟨2, ![a, b]⟩ : Shape).ShapeCasts ⟨3, ![a, b, 1]⟩)
    (hb : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- The slab view of a matrix stretched along a new first axis: `w[None, :, :]` broadcast to `[a, b, c]` reads
    `w (j, k)` at `(p, j, k)`. -/
theorem slab_stretch_apply {a b c : ℕ} (w : (⟨2, ![b, c]⟩ : Shape).Idx → α)
    (hc : (⟨2, ![b, c]⟩ : Shape).ShapeCasts ⟨3, ![1, b, c]⟩)
    (hb : (⟨3, ![1, b, c]⟩ : Shape).Broadcasts ⟨3, ![a, b, c]⟩) (p : Fin a) (j : Fin b) (k : Fin c) :
    broadcastTo ⟨3, ![a, b, c]⟩ (shapeCast ⟨3, ![1, b, c]⟩ w hc) hb (ix3 p j k) = w (ix2 j k) :=
  (broadcastTo_1bc_abc_apply _ hb p j k).trans (shapeCast_ab_1ab_apply w hc 0 j k)

end Cert.Rank3Layout
-- ==== Proof.BlockFeature.lean ====
/-
  What the kernel's body stores for one block of 256 vertices, read at an index.

  The body loads the block's neighbour positions `[1, 256, 32, 3]`, its vertex positions `[1, 256, 3]` and the whole
  table of normalised directions `[3, 512]`. It forms the 256 * 32 edges, normalises them, flattens them to 8192 rows
  (row `32 * p + n` is neighbour `n` of the block's vertex `p`), and for each of the eight supports multiplies the rows
  with that support's 64 direction columns, rectifies, takes the maximum over the 32 neighbours of every vertex and adds
  the result onto an accumulator that starts at zero. So the stored value at vertex `p` and filter `k` is the sum over the
  supports of the largest response among the neighbours: the specification's sum, for the block's own arrays.
-/
import proofs.«132764_j13554916786443_2_alg».proof.Proof.Gen.KernelIdeal.Frame
import proofs.«132764_j13554916786443_2_alg».proof.Proof.Spec
import proofs.«132764_j13554916786443_2_alg».proof.Proof.LibExtremeReduce
import proofs.«132764_j13554916786443_2_alg».proof.Proof.LibInnerProducts
import proofs.«132764_j13554916786443_2_alg».proof.Proof.LibRowPairs
import proofs.«132764_j13554916786443_2_alg».proof.Proof.LibUnitAxisLayout
import proofs.«132764_j13554916786443_2_alg».proof.Proof.LibRank3Layout
import Idealize.ShloMosaic.Lib.ValueLayout
import Idealize.ShloMosaic.Lib.Pipeline.Value

noncomputable section

namespace Cert.KernelIdeal.BlockFeature

open Cert.KernelIdeal Cert.KernelIdeal.Gen
open Idealize.ShloMosaic Idealize.ShloMosaic.ValueIdx Cert.DirectionalFeature
open scoped BigOperators

/-- Row `32 * p + n` of the flattened edges is neighbour `n` of the block's vertex `p`. -/
def row (p : Fin 256) (n : Fin 32) : Fin 8192 := ⟨p.val * 32 + n.val, by have := p.isLt; have := n.isLt; omega⟩

/-- The kernel's matrix product contracts the rows' three coordinates with the columns' three coordinates, no batch axis. -/
theorem dot_plain : dot_S8192x3_S3x64_S8192x64_1_0_0_1_n_n = DotDims.plain 8192 3 64 := rfl

variable (x0 : Vec Ideal S1x256x32x3 .f32) (x1 : Vec Ideal S1x256x3 .f32)

/-! ## The unit edges of the block -/

/-- The block's edges `[256, 32, 3]`: each neighbour's position minus the vertex's, the vertex's spread over the
    neighbour axis. -/
def edges : FVec Ideal S256x32x3 .f32 :=
  subf (shapeCast S256x32x3 x0 shapeCasts_S1x256x32x3_S256x32x3)
    (broadcastTo S256x32x3 (shapeCast S256x1x3 (shapeCast S256x3 x1 shapeCasts_S1x256x3_S256x3) shapeCasts_S256x3_S256x1x3)
      broadcasts_S256x1x3_S256x32x3)

/-- The divisor of every edge, `[256, 32, 1]`: the larger of its length and `eps`. -/
def divisors : FVec Ideal S256x32x1 .f32 :=
  maximumf
    (sqrt (shapeCast S256x32x1
      (multiReduction .add [2] S256x32 (mulf (edges x0 x1) (edges x0 x1)) 0x00000000#32 reduces_S256x32x3_S256x32 (.inl rfl) rfl)
      shapeCasts_S256x32_S256x32x1))
    (broadcast S256x32x1 (Scalar.ofBits .f32 0x2B8CBCCC#32))

/-- The unit edges as 8192 rows of three coordinates. -/
def unitRows : FVec Ideal S8192x3 .bf16 :=
  shapeCast S8192x3
    (truncf .bf16 (divf (edges x0 x1) (broadcastTo S256x32x3 (divisors x0 x1) broadcasts_S256x32x1_S256x32x3)) bitsLt_bf16_f32)
    shapeCasts_S256x32x3_S8192x3

/-- The body's first payload is these rows. -/
theorem pay2_eq : k0_pay2 (F := Ideal) x1 x0 = unitRows x0 x1 := rfl

/-- The edge from the block's vertex `p` to its neighbour `n`. -/
def blockEdge (p : Fin 256) (n : Fin 32) (d : Fin 3) : EReal :=
  x0 (ix4 (0 : Fin 1) p n d) - x1 (ix3 (0 : Fin 1) p d)

theorem edges_apply (p : Fin 256) (n : Fin 32) (d : Fin 3) :
    edges x0 x1 (ix3 p n d) = blockEdge x0 x1 p n d := by
  unfold edges blockEdge
  rw [subf_apply, shapeCast_1abc_abc_apply, UnitAxisLayout.broadcastTo_a1c_abc_apply,
    UnitAxisLayout.shapeCast_ac_a1c_apply, shapeCast_1ab_ab_apply]

/-- The sum of the squares of an edge's three coordinates. -/
theorem sumSquares_apply (p : Fin 256) (n : Fin 32) :
    multiReduction .add [2] S256x32 (mulf (edges x0 x1) (edges x0 x1)) 0x00000000#32 reduces_S256x32x3_S256x32 (.inl rfl) rfl
        (ix2 p n)
      = ∑ c : Fin 3, blockEdge x0 x1 p n c * blockEdge x0 x1 p n c :=
  (InnerProducts.lane_sum_apply (mulf (edges x0 x1) (edges x0 x1)) 0x00000000#32 reduces_S256x32x3_S256x32 (.inl rfl) rfl
      p n).trans
    (Finset.sum_congr rfl fun c _ => by rw [mulf_apply, edges_apply])

theorem divisors_apply (p : Fin 256) (n : Fin 32) (u : Fin 1) :
    divisors x0 x1 (ix3 p n u)
      = max (Ideal.sqrt (∑ c : Fin 3, blockEdge x0 x1 p n c * blockEdge x0 x1 p n c)) eps := by
  unfold divisors
  rw [maximumf_apply, broadcast_apply]
  show max (Ideal.sqrt (shapeCast S256x32x1 _ shapeCasts_S256x32_S256x32x1 (ix3 p n u))) _ = _
  rw [Cert.Rank3Layout.shapeCast_ab_ab1_apply]
  exact congrArg (fun z => max (Ideal.sqrt z) eps) (sumSquares_apply x0 x1 p n)

theorem unitRows_apply (p : Fin 256) (n : Fin 32) (d : Fin 3) :
    unitRows x0 x1 (ix2 (row p n) d) = unitOf (blockEdge x0 x1 p n) d := by
  unfold unitRows
  rw [RowPairs.shapeCast_abc_nc_apply _ _ p n d (row p n) rfl, truncf_apply, divf_apply,
    Cert.Rank3Layout.broadcastTo_ab1_abc_apply, edges_apply, divisors_apply]
  rfl

/-! ## One support's largest responses -/

/-- For rows `u` of unit edges and one support's direction columns `w`: the rectified products `[8192, 64]` viewed as
    `[256, 32, 64]` and reduced by the maximum over the neighbour axis. -/
def supportMax (u : FVec Ideal S8192x3 .bf16) (w : Vec Ideal S3x64 .f32) : FVec Ideal S256x64 .f32 :=
  multiReduction .maximumf [1] S256x64
    (shapeCast S256x32x64
      (maximumf
        (matmul dot_S8192x3_S3x64_S8192x64_1_0_0_1_n_n none u
          (truncf .bf16 (shapeCast S3x64 w shapeCasts_S3x64_S3x64) bitsLt_bf16_f32) (constant S8192x64 .f32 0x00000000#32))
        (broadcast S8192x64 (Scalar.ofBits .f32 0x00000000#32)))
      shapeCasts_S8192x64_S256x32x64)
    0xFF800000#32 reduces_S256x32x64_S256x64 (.inl rfl) rfl

theorem supportMax_apply (u : FVec Ideal S8192x3 .bf16) (w : Vec Ideal S3x64 .f32) (p : Fin 256) (k : Fin 64) :
    supportMax u w (ix2 p k)
      = ⨆ n : Fin 32, response (fun d => u (ix2 (row p n) d)) (fun d => w (ix2 d k)) := by
  unfold supportMax
  refine (ExtremeReduce.multiReduction_max_single _ reduces_S256x32x64_S256x64 (.inl rfl) rfl (ix2 p k)).trans ?_
  show (⨆ n : Fin 32, shapeCast S256x32x64 _ shapeCasts_S8192x64_S256x32x64
    (reduces_S256x32x64_S256x64.lift (ix2 p k) n)) = _
  refine iSup_congr fun n => ?_
  have el : reduces_S256x32x64_S256x64.lift (ix2 p k) n = ix3 p n k :=
    funext fun a => Fin.ext (by match a with | ⟨0, _⟩ => rfl | ⟨1, _⟩ => rfl | ⟨2, _⟩ => rfl)
  rw [el, RowPairs.shapeCast_nc_abc_apply _ _ p n k (row p n) rfl, maximumf_apply,
    InnerProducts.matmul_zero_apply _ dot_plain, broadcast_apply]
  simp only [truncf_apply, shapeCast_self]
  rfl

/-! ## The stored block -/

/-- What the body stores: the eight supports' largest responses added one after the other onto zero, with the leading
    unit axis of the output block put back. -/
def stored (w : Fin 8 → Vec Ideal S3x64 .f32) : FVec Ideal S1x256x64 .f32 :=
  shapeCast S1x256x64
    (addf (addf (addf (addf (addf (addf (addf (addf (broadcast S256x64 (Scalar.ofBits .f32 0x00000000#32))
      (supportMax (unitRows x0 x1) (w 0))) (supportMax (unitRows x0 x1) (w 1))) (supportMax (unitRows x0 x1) (w 2)))
      (supportMax (unitRows x0 x1) (w 3))) (supportMax (unitRows x0 x1) (w 4))) (supportMax (unitRows x0 x1) (w 5)))
      (supportMax (unitRows x0 x1) (w 6))) (supportMax (unitRows x0 x1) (w 7)))
    shapeCasts_S256x64_S1x256x64

/-- The body's payloads, composed as its one store reads them, are that array. -/
theorem pay1_eq (w : Fin 8 → Vec Ideal S3x64 .f32) :
    k0_pay1 (F := Ideal) (k0_pay2 x1 x0)
      (k0_pay4 (k0_pay2 x1 x0) (k0_pay3 x1 x0 (w 0) (w 1)) (w 2) (w 3) (w 4) (w 5)) (k0_pay5 (w 6))
      (constant S8192x64 .f32 0x00000000#32) (w 7)
      = stored x0 x1 w := rfl

/-- At the block's vertex `p` and filter `k`: the sum over the supports of the largest response among the neighbours. -/
theorem stored_apply (w : Fin 8 → Vec Ideal S3x64 .f32) (u : Fin 1) (p : Fin 256) (k : Fin 64) :
    stored x0 x1 w (ix3 u p k)
      = ∑ s : Fin 8, ⨆ n : Fin 32, response (unitOf (blockEdge x0 x1 p n)) (fun d => w s (ix2 d k)) := by
  unfold stored
  rw [shapeCast_ab_1ab_apply]
  simp only [addf_apply, broadcast_apply, supportMax_apply, unitRows_apply]
  exact accumulate_eq_sum fun s => ⨆ n : Fin 32, response (unitOf (blockEdge x0 x1 p n)) (fun d => w s (ix2 d k))

end Cert.KernelIdeal.BlockFeature

end
-- ==== Proof.KernelFeature.lean ====
/-
  From the blocks to the whole result array.

  The grid has 2 * 16 points; point `(b, vb)` works on batch `b` and the 256 vertices `256 * vb + p`. Its block of the
  neighbour array and of the vertex array are those vertices' rows, its block of the direction table is the whole table
  (read in eight slices of 64 columns, slice `s` being support `s`), and the block it writes back is the same vertices'
  rows of the result. What the body stores for the block's vertex `p` is the specified feature of vertex `256 * vb + p` of
  batch `b`, so every point writes a block of ONE array, the feature of the arrays the region finds; the 32 blocks tile
  the result, so that array is what the result ends holding.
-/
import proofs.«132764_j13554916786443_2_alg».proof.Proof.Gen.KernelIdeal.Value
import proofs.«132764_j13554916786443_2_alg».proof.Proof.BlockFeature
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KernelFeature

open Cert.KernelIdeal Cert.KernelIdeal.Gen Cert.KernelIdeal.BlockFeature
open Idealize.ShloMosaic.ValueIdx Cert.DirectionalFeature
open scoped BigOperators

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The direction table read in eight slices -/

/-- Support `s`'s 64 direction columns: the table's columns `64 * s … 64 * s + 63`. -/
def slices (x2 : Vec Ideal S3x512 .f32) (s : Fin 8) : Vec Ideal S3x64 .f32 :=
  View.ld x2 (Rect.unit (s := S3x512) ![0, 64 * s.val] S3x64.size (fun a => by
    match a with
    | ⟨0, _⟩ => show 0 + 3 ≤ 3; omega
    | ⟨1, _⟩ => show 64 * s.val + 64 ≤ 512; have := s.isLt; omega))

theorem slices_apply (x2 : Vec Ideal S3x512 .f32) (s : Fin 8) (d : Fin 3) (k : Fin 64) :
    slices x2 s (ix2 d k) = x2 (ix2 d (col s k)) :=
  congrArg x2 (funext fun a => Fin.ext (by
    match a with
    | ⟨0, _⟩ => show 0 + 1 * d.val = d.val; omega
    | ⟨1, _⟩ => show 64 * s.val + 1 * k.val = s.val * 64 + k.val; omega))

/-- What the body leaves in the output's staging buffer is the stored block of BlockFeature, over the eight slices. -/
theorem out_eq (x0 : Vec Ideal S1x256x32x3 .f32) (x1 : Vec Ideal S1x256x3 .f32) (x2 : Vec Ideal S3x512 .f32) :
    out0_3 (F := Ideal) x0 x1 x2 = stored x0 x1 (slices x2) := by
  unfold out0_3
  rw [View.canon_unit_zero hz3]
  simp only [View.ld_unit_zero (S := S1x256x3) hz3, View.ld_unit_zero (S := S1x256x32x3) hz4]
  exact pay1_eq x0 x1 (slices x2)

/-- A block whose rows are vertex `(b, v)`'s rows of the arrays `nb`, `vx`, and whose table is `sd`, stores at that row the
    specified feature of the vertex. -/
theorem stored_eq_featureAt (nb : SNb.Idx → EReal) (vx : SVx.Idx → EReal) (sd : SSd.Idx → EReal)
    (x0 : Vec Ideal S1x256x32x3 .f32) (x1 : Vec Ideal S1x256x3 .f32) (x2 : Vec Ideal S3x512 .f32)
    (b : Fin 2) (v : Fin 4096) (u : Fin 1) (p : Fin 256) (k : Fin 64)
    (h0 : ∀ (n : Fin 32) (d : Fin 3), x0 (ix4 (0 : Fin 1) p n d) = nb (ix4 b v n d))
    (h1 : ∀ d : Fin 3, x1 (ix3 (0 : Fin 1) p d) = vx (ix3 b v d))
    (h2 : ∀ (d : Fin 3) (j : Fin 512), x2 (ix2 d j) = sd (ix2 d j)) :
    stored x0 x1 (slices x2) (ix3 u p k) = featureAt nb vx sd b v k := by
  rw [stored_apply]
  unfold featureAt
  refine Finset.sum_congr rfl fun s _ => iSup_congr fun n => ?_
  have he : blockEdge x0 x1 p n = edge nb vx b v n := funext fun d => by
    unfold blockEdge edge; rw [h0, h1]
  have hw : (fun d => slices x2 s (ix2 d k)) = column sd (col s k) := funext fun d => by
    unfold column; rw [slices_apply, h2]
  rw [he, hw]

/-! ## The windows' blocks at a grid point -/

variable (m : (ℓ : Loc nD τ sig) → Buf (Elt Ideal) ℓ) (ρ : Dev nD → PrngReg)

/-- The printed index maps, decided over the 32 grid points: the neighbour and vertex windows move with the output
    window on the batch and vertex-block axes and stay at block 0 elsewhere; the table's window never moves. -/
theorem idx_facts : ∀ t : Fin cfg0.N,
    win0_0.index t (0 : Fin 4) = win0_3.index t (0 : Fin 3) ∧ win0_0.index t (1 : Fin 4) = win0_3.index t (1 : Fin 3)
    ∧ win0_0.index t (2 : Fin 4) = 0 ∧ win0_0.index t (3 : Fin 4) = 0
    ∧ win0_1.index t (0 : Fin 3) = win0_3.index t (0 : Fin 3) ∧ win0_1.index t (1 : Fin 3) = win0_3.index t (1 : Fin 3)
    ∧ win0_1.index t (2 : Fin 3) = 0
    ∧ win0_2.index t (0 : Fin 2) = 0 ∧ win0_2.index t (1 : Fin 2) = 0
    ∧ win0_3.index t (0 : Fin 3) < 2 ∧ win0_3.index t (1 : Fin 3) < 16 ∧ win0_3.index t (2 : Fin 3) = 0 :=
  (by decide +kernel : ∀ t : Fin grid0.N, _)

/-- Every block of the result is SOME point's. -/
theorem idx_onto : ∀ (q0 : Fin 2) (q1 : Fin 16), ∃ t : Fin cfg0.N, win0_3.index t = ![q0.val, q1.val, 0] :=
  (by decide +kernel : ∀ (q0 : Fin 2) (q1 : Fin 16), ∃ t : Fin grid0.N, win0_3.index t = ![q0.val, q1.val, 0])

/-- The neighbour window's block at point `t`, row `p`, is the neighbour array's row of vertex `(b, v)`. -/
theorem nbBlock_apply (c : Dev nD) (t : Fin cfg0.N) (b : Fin 2) (v : Fin 4096) (p : Fin 256) (n : Fin 32) (d : Fin 3)
    (hb : b.val = win0_3.index t (0 : Fin 3)) (hv : v.val = win0_3.index t (1 : Fin 3) * 256 + p.val) :
    (iblk m c 0 t : Vec Ideal S1x256x32x3 .f32) (ix4 (0 : Fin 1) p n d)
      = (V m c main_v16 : S2x4096x32x3.Idx → EReal) (ix4 b v n d) := by
  obtain ⟨e0, e1, e2, e3, -⟩ := idx_facts t
  unfold iblk
  rw [View.read_apply]
  show (V m c main_v16 : S2x4096x32x3.Idx → EReal) _ = (V m c main_v16 : S2x4096x32x3.Idx → EReal) _
  refine congrArg (V m c main_v16 : S2x4096x32x3.Idx → EReal) (funext fun a => Fin.ext ?_)
  match a with
  | ⟨0, _⟩ => show win0_0.index t (0 : Fin 4) * 1 + 1 * 0 = b.val; omega
  | ⟨1, _⟩ => show win0_0.index t (1 : Fin 4) * 256 + 1 * p.val = v.val; omega
  | ⟨2, _⟩ => show win0_0.index t (2 : Fin 4) * 32 + 1 * n.val = n.val; omega
  | ⟨3, _⟩ => show win0_0.index t (3 : Fin 4) * 3 + 1 * d.val = d.val; omega

/-- The vertex window's block at point `t`, row `p`, is the vertex array's row of vertex `(b, v)`. -/
theorem vxBlock_apply (c : Dev nD) (t : Fin cfg0.N) (b : Fin 2) (v : Fin 4096) (p : Fin 256) (d : Fin 3)
    (hb : b.val = win0_3.index t (0 : Fin 3)) (hv : v.val = win0_3.index t (1 : Fin 3) * 256 + p.val) :
    (iblk m c 1 t : Vec Ideal S1x256x3 .f32) (ix3 (0 : Fin 1) p d)
      = (V m c main_arg1 : S2x4096x3.Idx → EReal) (ix3 b v d) := by
  obtain ⟨-, -, -, -, e4, e5, e6, -⟩ := idx_facts t
  unfold iblk
  rw [View.read_apply]
  show (V m c main_arg1 : S2x4096x3.Idx → EReal) _ = (V m c main_arg1 : S2x4096x3.Idx → EReal) _
  refine congrArg (V m c main_arg1 : S2x4096x3.Idx → EReal) (funext fun a => Fin.ext ?_)
  match a with
  | ⟨0, _⟩ => show win0_1.index t (0 : Fin 3) * 1 + 1 * 0 = b.val; omega
  | ⟨1, _⟩ => show win0_1.index t (1 : Fin 3) * 256 + 1 * p.val = v.val; omega
  | ⟨2, _⟩ => show win0_1.index t (2 : Fin 3) * 3 + 1 * d.val = d.val; omega

/-- The table's window holds the whole table at every point. -/
theorem sdBlock_apply (c : Dev nD) (t : Fin cfg0.N) (d : Fin 3) (j : Fin 512) :
    (iblk m c 2 t : Vec Ideal S3x512 .f32) (ix2 d j) = (V m c main_v24 : S3x512.Idx → EReal) (ix2 d j) := by
  obtain ⟨-, -, -, -, -, -, -, e7, e8, -⟩ := idx_facts t
  unfold iblk
  rw [View.read_apply]
  show (V m c main_v24 : S3x512.Idx → EReal) _ = (V m c main_v24 : S3x512.Idx → EReal) _
  refine congrArg (V m c main_v24 : S3x512.Idx → EReal) (funext fun a => Fin.ext ?_)
  match a with
  | ⟨0, _⟩ => show win0_2.index t (0 : Fin 2) * 3 + 1 * d.val = d.val; omega
  | ⟨1, _⟩ => show win0_2.index t (1 : Fin 2) * 512 + 1 * j.val = j.val; omega

/-! ## The write-back, the cover, the array, the run -/

/-- The kernel's result: the specified feature of the three arrays the region finds. -/
abbrev result (c : Dev nD) : S2x4096x64.Idx → EReal :=
  feature (V m c main_v16 : S2x4096x32x3.Idx → EReal) (V m c main_arg1 : S2x4096x3.Idx → EReal)
    (V m c main_v24 : S3x512.Idx → EReal)

/-- WHAT POINT `t` WRITES BACK is block `t` of `result`. -/
theorem flushed_eq (c : Dev nD) (t : Fin cfg0.N) :
    (dats m 0 c).flushed 3 t = ((cfg0.win 3).blk t).view.read (Elt Ideal) (result m c) := by
  rw [Cert.KernelIdeal.Value.flushed3]
  refine funext fun (y : S1x256x64.Idx) => ?_
  obtain ⟨u, p, k, rfl⟩ : ∃ (u : Fin 1) (p : Fin 256) (k : Fin 64), y = ix3 u p k := ⟨y 0, y 1, y 2, eq_ix3 y⟩
  show out0_3 (iblk m c 0 t) (iblk m c 1 t) (iblk m c 2 t) (ix3 u p k)
    = result m c (((cfg0.win 3).blk t).view.emb (ix3 u p k))
  obtain ⟨-, -, -, -, -, -, -, -, -, hb, hv, e11⟩ := idx_facts t
  have hp := p.isLt
  have hemb : ((cfg0.win 3).blk t).view.emb (ix3 u p k)
      = ix3 (⟨win0_3.index t (0 : Fin 3), hb⟩ : Fin 2) (⟨win0_3.index t (1 : Fin 3) * 256 + p.val, by omega⟩ : Fin 4096) k :=
    funext fun a => Fin.ext (by
      match a with
      | ⟨0, _⟩ => show win0_3.index t (0 : Fin 3) * 1 + 1 * u.val = win0_3.index t (0 : Fin 3); omega
      | ⟨1, _⟩ => show win0_3.index t (1 : Fin 3) * 256 + 1 * p.val = win0_3.index t (1 : Fin 3) * 256 + p.val; omega
      | ⟨2, _⟩ => show win0_3.index t (2 : Fin 3) * 64 + 1 * k.val = k.val; omega)
  rw [hemb]
  refine (congrFun (out_eq (iblk m c 0 t) (iblk m c 1 t) (iblk m c 2 t)) (ix3 u p k)).trans ?_
  exact stored_eq_featureAt _ _ _ (iblk m c 0 t) (iblk m c 1 t) (iblk m c 2 t) _ _ u p k
    (fun n d => nbBlock_apply m c t _ _ p n d rfl rfl)
    (fun d => vxBlock_apply m c t _ _ p d rfl rfl)
    (fun d j => sdBlock_apply m c t d j)

/-- An index of the result is in point `t`'s block iff each coordinate is in the block's range on its axis. -/
theorem mem_blk (t : Fin cfg0.N) (i : S2x4096x64.Idx) :
    i ∈ ((cfg0.win 3).blk t).view.set ↔ ∀ a : Fin 3, win0_3.index t a * S1x256x64.size a ≤ (i a).val
      ∧ (i a).val < win0_3.index t a * S1x256x64.size a + S1x256x64.size a := by
  show i ∈ ((View.whole main_v25).slice (win0_3.rect t)).set ↔ _
  rw [View.set_slice_whole, Rect.mem_set_unit]
  exact Iff.rfl

/-- The blocks tile the result: vertex `(b, v)`'s row is in the block of point `(b, v / 256)`. -/
theorem cover (i : S2x4096x64.Idx) :
    ∃ t : Fin cfg0.N, (cfg0.win 3).flush t = true ∧ i ∈ ((cfg0.win 3).blk t).view.set := by
  have h0 : (i 0).val < 2 := (i 0).isLt
  have h1 : (i 1).val < 4096 := (i 1).isLt
  have h2 : (i 2).val < 64 := (i 2).isLt
  obtain ⟨t, ht⟩ := idx_onto ⟨(i 0).val, h0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1; omega
  | ⟨1, _⟩ =>
    show win0_3.index t (1 : Fin 3) * 256 ≤ (i 1).val ∧ (i 1).val < win0_3.index t (1 : Fin 3) * 256 + 256; omega
  | ⟨2, _⟩ =>
    show win0_3.index t (2 : Fin 3) * 64 ≤ (i 2).val ∧ (i 2).val < win0_3.index t (2 : Fin 3) * 64 + 64; omega

/-- THE ARRAY after the run is `result`. -/
theorem final (c : Dev nD) : (dats m 0 c).arrAt 3 cfg0.N = result m c :=
  (dats m 0 c).arrAt_eq_of_cover 3 (result m c) (fun t _ => flushed_eq m c t) cover

/-- The kernel's run, read: the result array at the specified feature of the arrays the region finds, the arguments
    unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.KernelFeature

end
-- ==== Proof.RefFeature.lean ====
/-
  The reference's result is the specified feature.

  The reference gathers the neighbour positions, subtracts each vertex's own position along a new neighbour axis,
  normalises every edge, multiplies the unit edges with all 512 normalised direction columns at once, rectifies,
  splits the 512 columns as 8 supports of 64 filters, takes the maximum over the neighbours and sums over the supports.
  Read one operation at a time at explicit coordinates `(b, v, n, d)`, each stretch is one of the specification's
  functions: the difference array is `edge`, the quotient `unitOf` of it, the rectified product `response`, the
  reduction over the neighbour axis the supremum, and the last sum the specification's sum over the supports. The
  gathered array and the normalised directions are kept as they are written: the kernel's program computes them by the
  same operations.
-/
import proofs.«132764_j13554916786443_2_alg».proof.Proof.Gen.ReferenceIdeal.Read
import proofs.«132764_j13554916786443_2_alg».proof.Proof.Spec
import proofs.«132764_j13554916786443_2_alg».proof.Proof.LibExtremeReduce

noncomputable section

namespace Cert.ReferenceIdeal.RefFeature

open Cert.ReferenceIdeal Cert.ReferenceIdeal.Gen Cert.ReferenceIdeal.Read
open Idealize.ShloMosaic Idealize.ShloMosaic.ValueIdx Cert.DirectionalFeature
open scoped BigOperators

variable (x0 : (⟨S2x4096x32, .i32⟩ : BufTy).Contents (Elt Ideal)) (x1 : (⟨S2x4096x3, .f32⟩ : BufTy).Contents (Elt Ideal))
  (x2 : (⟨S3x512, .f32⟩ : BufTy).Contents (Elt Ideal))

/-- The gathered neighbour positions, as the reference computes them from the index array and the vertices. -/
abbrev neighbours : SNb.Idx → EReal := val_main_v16 (F := Ideal) x0 x1

/-- The directions with every column divided by `max (its length) eps`, as the reference computes them. -/
abbrev unitDirections : SSd.Idx → EReal := val_main_v35 (F := Ideal) x2

/-- The difference array at `(b, v, n, d)` is coordinate `d` of the edge from vertex `(b, v)` to its neighbour `n`: the
    vertex's position is spread over the neighbour axis without moving. -/
theorem diff_apply (b : Fin 2) (v : Fin 4096) (n : Fin 32) (d : Fin 3) :
    val_main_v19 (F := Ideal) x0 x1 (ix4 b v n d) = edge (neighbours x0 x1) x1 b v n d := by
  rw [val_main_v19_apply, val_main_v18_apply, val_main_v17_apply]
  have e : idx_main_v17 (idx_main_v18 (ix4 b v n d)) = ix3 b v d :=
    funext fun a => Fin.ext (by match a with | ⟨0, _⟩ => rfl | ⟨1, _⟩ => rfl | ⟨2, _⟩ => rfl)
  rw [e]
  rfl

/-- The quotient array at `(b, v, n, d)` is coordinate `d` of the normalised edge: the sum of squares runs over the
    edge's three coordinates, and the divisor is the same for the three. -/
theorem unit_apply (b : Fin 2) (v : Fin 4096) (n : Fin 32) (d : Fin 3) :
    val_main_v27 (F := Ideal) x0 x1 (ix4 b v n d) = unitOf (edge (neighbours x0 x1) x1 b v n) d := by
  rw [val_main_v27_apply, val_main_v26_apply, val_main_v25_apply, val_main_v23_apply, val_main_v22_apply,
    val_main_v21_apply, val_main_v24_apply, val_main_cst_apply, val_main_cst_3_apply, diff_apply]
  have e1 : idx_main_v22 (idx_main_v26 (ix4 b v n d)) = ix3 b v n :=
    funext fun a => Fin.ext (by match a with | ⟨0, _⟩ => rfl | ⟨1, _⟩ => rfl | ⟨2, _⟩ => rfl)
  have e2 : ∀ c : Fin 3, idx_main_v21 (ix3 b v n) c = ix4 b v n c := fun c =>
    funext fun a => Fin.ext (by match a with | ⟨0, _⟩ => rfl | ⟨1, _⟩ => rfl | ⟨2, _⟩ => rfl | ⟨3, _⟩ => rfl)
  rw [e1]
  simp only [e2, val_main_v20_apply, diff_apply]
  unfold unitOf eps
  simp only [Ideal.hostDivf_def, Ideal.maximumf_def, Ideal.hostUnary_sqrt_def, Ideal.mulf_def, Ideal.ofBits_def,
    Ideal.ofBits_zero_f32, zero_add]

/-- The rectified product at `(b, v, n, j)` is the response of neighbour `n`'s unit edge to direction column `j`. -/
theorem response_apply (b : Fin 2) (v : Fin 4096) (n : Fin 32) (j : Fin 512) :
    val_main_v37 (F := Ideal) x0 x1 x2 (ix4 b v n j)
      = response (unitOf (edge (neighbours x0 x1) x1 b v n)) (column (unitDirections x2) j) := by
  rw [val_main_v37_apply, val_main_v36_apply, val_main_call0_v0_apply, val_main_call0_cst_apply]
  have el : ∀ d : Fin 3, lidx_main_v36 (ix4 b v n j) d = ix4 b v n d := fun d =>
    funext fun a => Fin.ext (by match a with | ⟨0, _⟩ => rfl | ⟨1, _⟩ => rfl | ⟨2, _⟩ => rfl | ⟨3, _⟩ => rfl)
  have er : ∀ d : Fin 3, ridx_main_v36 (ix4 b v n j) d = ix2 d j := fun d =>
    funext fun a => Fin.ext (by match a with | ⟨0, _⟩ => rfl | ⟨1, _⟩ => rfl)
  simp only [el, er, unit_apply]
  rfl

/-- The maximum over the neighbour axis at `(b, v, s, k)` is the largest response among the 32 neighbours to filter `k`
    of support `s`: the reshape sends `(b, v, n, s, k)` to column `64 * s + k`. -/
theorem max_apply (b : Fin 2) (v : Fin 4096) (s : Fin 8) (k : Fin 64) :
    val_main_v39 (F := Ideal) x0 x1 x2 (ix4 b v s k)
      = ⨆ n : Fin 32, response (unitOf (edge (neighbours x0 x1) x1 b v n)) (column (unitDirections x2) (col s k)) := by
  have hR : S2x4096x32x8x64.Reduces [2] S2x4096x8x64 := by decide
  unfold val_main_v39 val_main_cst_6
  refine (ExtremeReduce.hostReduce_max_single (val_main_v38 (F := Ideal) x0 x1 x2)
    reducesTo_S2x4096x32x8x64_S2x4096x8x64_d2 hR h_S_ (ix4 b v s k)).trans ?_
  show (⨆ n : Fin 32, val_main_v38 (F := Ideal) x0 x1 x2 (hR.lift (ix4 b v s k) n)) = _
  refine iSup_congr fun n => ?_
  have el : hR.lift (ix4 b v s k) n = ix5 b v n s k :=
    funext fun a => Fin.ext (by
      match a with | ⟨0, _⟩ => rfl | ⟨1, _⟩ => rfl | ⟨2, _⟩ => rfl | ⟨3, _⟩ => rfl | ⟨4, _⟩ => rfl)
  rw [el, val_main_v38_apply]
  have hb := b.isLt; have hv := v.isLt; have hn := n.isLt; have hs := s.isLt; have hk := k.isLt
  have e38 : idx_main_v38 (ix5 b v n s k) = ix4 b v n (col s k) :=
    funext fun a => Fin.ext (by
      match a with
      | ⟨0, _⟩ => show ((((b.val * 4096 + v.val) * 32 + n.val) * 8 + s.val) * 64 + k.val) / 67108864 = b.val; omega
      | ⟨1, _⟩ => show ((((b.val * 4096 + v.val) * 32 + n.val) * 8 + s.val) * 64 + k.val) / 16384 % 4096 = v.val; omega
      | ⟨2, _⟩ => show ((((b.val * 4096 + v.val) * 32 + n.val) * 8 + s.val) * 64 + k.val) / 512 % 32 = n.val; omega
      | ⟨3, _⟩ => show ((((b.val * 4096 + v.val) * 32 + n.val) * 8 + s.val) * 64 + k.val) % 512 = s.val * 64 + k.val; omega)
  rw [e38, response_apply]

/-- The reference's result array is the specified feature of the gathered neighbours, the vertices and the normalised
    directions. -/
theorem result_eq_feature :
    val_main_v40 (F := Ideal) x0 x1 x2 = feature (neighbours x0 x1) x1 (unitDirections x2) := by
  funext i
  obtain ⟨b, v, k, rfl⟩ : ∃ (b : Fin 2) (v : Fin 4096) (k : Fin 64), i = ix3 b v k := ⟨i 0, i 1, i 2, eq_ix3 i⟩
  rw [val_main_v40_apply, val_main_cst_7_apply, feature_apply]
  have e : ∀ s : Fin 8, idx_main_v40 (ix3 b v k) s = ix4 b v s k := fun s =>
    funext fun a => Fin.ext (by match a with | ⟨0, _⟩ => rfl | ⟨1, _⟩ => rfl | ⟨2, _⟩ => rfl | ⟨3, _⟩ => rfl)
  simp only [e, max_apply]
  exact zeroWord_add _

end Cert.ReferenceIdeal.RefFeature

end
-- ==== Proof.HostPrefix.lean ====
/-
  The arrays the kernel's program hands to its one region.

  Before the region the program gathers the neighbour positions from the vertices and the index array, and divides
  every direction column by the larger of its length and `eps`. These are, operation for operation, the first lines of
  the reference program; so the two arrays the region finds are the reference's own terms of the same arguments. Neither
  chain of operations is opened: the gather and the normalisation enter the certificate only as one function each,
  applied on both sides to equal arguments.
-/
import proofs.«132764_j13554916786443_2_alg».proof.Proof.Gen.KernelIdeal.Frame
import proofs.«132764_j13554916786443_2_alg».proof.Proof.Gen.ReferenceIdeal.Read
import Idealize.ShloMosaic.Lib.StableHlo.Run

noncomputable section

namespace Cert.KernelIdeal.HostPrefix

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 1000000 in
/-- The region's first operand is the gathered neighbour positions, as the reference gathers them. -/
theorem neighbours_eq (c : Dev nD) :
    (V m c main_v16 : S2x4096x32x3.Idx → EReal)
      = Cert.ReferenceIdeal.Read.val_main_v16 (F := Ideal) (m ((c : Thread nD τ).loc main_arg0))
          (m ((c : Thread nD τ).loc main_arg1)) := by
  dsimp only [Gen.V, Gen.hostOps0]
  after_results_simp
  rfl

/-- The region's third operand is the normalised directions, as the reference normalises them. -/
theorem unitDirections_eq (c : Dev nD) :
    (V m c main_v24 : S3x512.Idx → EReal)
      = Cert.ReferenceIdeal.Read.val_main_v35 (F := Ideal) (m ((c : Thread nD τ).loc main_arg2)) := by
  dsimp only [Gen.V, Gen.hostOps0]
  after_results
  rfl

end Cert.KernelIdeal.HostPrefix

end
-- ==== Proof.lean ====
/-
  The kernel and its reference compute one function of the arguments on the extended reals.

  For every vertex `(b, v)` and filter `k` both programs produce

      sum over the 8 supports s of  max over the 32 neighbours n of
        max (sum over d of u(b, v, n, d) * w(d, 64 * s + k)) 0,

  where `u(b, v, n, ·)` is the edge from the vertex to its gathered neighbour `n` divided by `max (its length) eps` and
  `w(·, j)` is direction column `j` divided by `max (its length) eps` (Proof/Spec.lean). The reference computes all 512
  columns' products at once, rectifies, splits the columns as 8 * 64, takes the maximum over the neighbour axis and sums
  over the supports (Proof/RefFeature.lean). The kernel works on blocks of 256 vertices: it flattens the block's unit
  edges to 8192 rows, and for one support after the other multiplies the rows with that support's 64 columns, rectifies,
  takes the maximum over each vertex's 32 rows and adds it onto an accumulator started at zero
  (Proof/BlockFeature.lean); the 32 blocks tile the result (Proof/KernelFeature.lean). The gathered neighbours and the
  normalised directions are computed before the kernel's region by the reference's own operations
  (Proof/HostPrefix.lean), so they enter both sides as the same terms. The only law between the two spellings is that
  addition on the extended reals is associative with neutral element zero: no input has to be finite, and the
  precondition is never opened. The changes of float format inside the kernel are the identity on the extended reals,
  and the idealization rewrote no operation, so `preserves` has nothing to state.
-/
import proofs.«132764_j13554916786443_2_alg».proof.Defs
import proofs.«132764_j13554916786443_2_alg».proof.Proof.Gen.Kernel
import proofs.«132764_j13554916786443_2_alg».proof.Proof.Gen.Kernel.Frame
import proofs.«132764_j13554916786443_2_alg».proof.Proof.Gen.KernelIdeal
import proofs.«132764_j13554916786443_2_alg».proof.Proof.Gen.KernelIdeal.Frame
import proofs.«132764_j13554916786443_2_alg».proof.Proof.Gen.KernelIdeal.Value
import proofs.«132764_j13554916786443_2_alg».proof.Proof.Gen.ReferenceIdeal
import proofs.«132764_j13554916786443_2_alg».proof.Proof.Gen.ReferenceIdeal.Run
import proofs.«132764_j13554916786443_2_alg».proof.Proof.Gen.ReferenceIdeal.Read
import proofs.«132764_j13554916786443_2_alg».proof.Proof.Gen.Pre_finite_inputs
import proofs.«132764_j13554916786443_2_alg».proof.Proof.KernelFeature
import proofs.«132764_j13554916786443_2_alg».proof.Proof.RefFeature
import proofs.«132764_j13554916786443_2_alg».proof.Proof.HostPrefix
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the specified feature of the gathered neighbours,
    the vertices and the normalised directions: the kernel's arrays before its region are the reference's own terms of
    the same arguments. -/
theorem algebraic : Cert.algebraic_KernelIdeal_ReferenceIdeal := by
  intro m ρ m' ρ' _ hagree
  refine ⟨fun c => Cert.KernelIdeal.KernelFeature.result m c, Cert.KernelIdeal.KernelFeature.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefFeature.result_eq_feature,
    (hagree c).1, (hagree c).2.1, (hagree c).2.2]
  show _ = Cert.DirectionalFeature.feature _ _ _
  rw [Cert.KernelIdeal.HostPrefix.neighbours_eq, Cert.KernelIdeal.HostPrefix.unitDirections_eq,
    Cert.KernelIdeal.Gen.V_main_arg1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
